-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S4096x1024 : Shape := ⟨2, ![4096, 1024]⟩
abbrev S16x2048 : Shape := ⟨2, ![16, 2048]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S16x2048x1024 .f32) (main_arg1 : FVec F S4096x1024 .f32) (main_arg2 : IVec S16x2048 32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S16x2048x1024 : Shape := ⟨3, ![16, 2048, 1024]⟩
abbrev S4096x1024 : Shape := ⟨2, ![4096, 1024]⟩
abbrev S16x2048 : Shape := ⟨2, ![16, 2048]⟩
abbrev S_ : Shape := ⟨0, ![]⟩
abbrev S16 : Shape := ⟨1, ![16]⟩
abbrev S16x1 : Shape := ⟨2, ![16, 1]⟩
abbrev S16x2048x1 : Shape := ⟨3, ![16, 2048, 1]⟩
abbrev S1x256x1 : Shape := ⟨3, ![1, 256, 1]⟩
abbrev S1x256x1024 : Shape := ⟨3, ![1, 256, 1024]⟩
abbrev S256x1 : Shape := ⟨2, ![256, 1]⟩
abbrev S256x4096 : Shape := ⟨2, ![256, 4096]⟩
abbrev S256x1024 : Shape := ⟨2, ![256, 1024]⟩

abbrev nBuf : Space → Nat
  | .hbm => 33
  | .vmem => 7
  | .smem => 0
  | _ => 0

abbrev bufTy : (tb : Table) → Fin (tcTables nBuf tb) → BufTy
  | .hbm, ⟨0, _⟩ => ⟨S16x2048x1024, .f32⟩
  | .hbm, ⟨1, _⟩ => ⟨S4096x1024, .f32⟩
  | .hbm, ⟨2, _⟩ => ⟨S16x2048, .i32⟩
  | .hbm, ⟨3, _⟩ => ⟨S16x2048, .f32⟩
  | .hbm, ⟨4, _⟩ => ⟨S_, .f32⟩
  | .hbm, ⟨5, _⟩ => ⟨S16, .f32⟩
  | .hbm, ⟨6, _⟩ => ⟨S16x1, .f32⟩
  | .hbm, ⟨7, _⟩ => ⟨S_, .f32⟩
  | .hbm, ⟨8, _⟩ => ⟨S16, .f32⟩
  | .hbm, ⟨9, _⟩ => ⟨S16x1, .f32⟩
  | .hbm, ⟨10, _⟩ => ⟨S16x1, .f32⟩
  | .hbm, ⟨11, _⟩ => ⟨S_, .f32⟩
  | .hbm, ⟨12, _⟩ => ⟨S16x1, .f32⟩
  | .hbm, ⟨13, _⟩ => ⟨S16x1, .f32⟩
  | .hbm, ⟨14, _⟩ => ⟨S16x2048, .f32⟩
  | .hbm, ⟨15, _⟩ => ⟨S16x2048, .f32⟩
  | .hbm, ⟨16, _⟩ => ⟨S16x2048, .f32⟩
  | .hbm, ⟨17, _⟩ => ⟨S16x2048, .f32⟩
  | .hbm, ⟨18, _⟩ => ⟨S_, .f32⟩
  | .hbm, ⟨19, _⟩ => ⟨S16x2048, .f32⟩
  | .hbm, ⟨20, _⟩ => ⟨S16x2048, .f32⟩
  | .hbm, ⟨21, _⟩ => ⟨S16x2048, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S16x2048, .i32⟩
  | .hbm, ⟨26, _⟩ => ⟨S16x2048, .i32⟩
  | .hbm, ⟨27, _⟩ => ⟨S_, .i32⟩
  | .hbm, ⟨28, _⟩ => ⟨S16x2048, .i32⟩
  | .hbm, ⟨29, _⟩ => ⟨S16x2048, .i32⟩
  | .hbm, ⟨30, _⟩ => ⟨S16x2048x1, .i32⟩
  | .hbm, ⟨31, _⟩ => ⟨S4096x1024, .bf16⟩
  | .hbm, ⟨32, _⟩ => ⟨S16x2048x1024, .f32⟩
  | .local _ .vmem, ⟨0, _⟩ => ⟨S1x256x1, .i32⟩
  | .local _ .vmem, ⟨1, _⟩ => ⟨S1x256x1, .i32⟩
  | .local _ .vmem, ⟨2, _⟩ => ⟨S1x256x1024, .f32⟩
  | .local _ .vmem, ⟨3, _⟩ => ⟨S1x256x1024, .f32⟩
  | .local _ .vmem, ⟨4, _⟩ => ⟨S4096x1024, .bf16⟩
  | .local _ .vmem, ⟨5, _⟩ => ⟨S1x256x1024, .f32⟩
  | .local _ .vmem, ⟨6, _⟩ => ⟨S1x256x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_c_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S16x2048_S16_d1 : S16x2048.ReducesTo [1] S16
  h_S_ : 0 < S_.numel
  bcast_S16_S16x1_0 : S16.BroadcastsInDim S16x1 (![0] : Fin 1 → Fin S16x1.rank)
  bcast_S_S16x1 : S_.BroadcastsInDim S16x1 (![] : Fin 0 → Fin S16x1.rank)
  bcast_S16x1_S16x2048_0_1 : S16x1.BroadcastsInDim S16x2048 (![0, 1] : Fin 2 → Fin S16x2048.rank)
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bitsLt_bf16_f32 : FTy.bits .bf16 < FTy.bits .f32
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  iota_S256x4096_d1_w32 : S256x4096.Iotas .tc 32 [1]
  broadcasts_S256x1_S256x4096 : S256x1.Broadcasts S256x4096
  natLt_1_32 : 1 < 32
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1.size a ≤ S16x2048x1.size a
  hwx0_0 : ∀ i : grid0.Coords, EltTy.bits .i32 = 32 ∨ (Rect.block (s := S16x2048x1) S1x256x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S16x2048x1024.size a
  hwx0_1 : ∀ i : grid0.Coords, EltTy.bits .f32 = 32 ∨ (Rect.block (s := S16x2048x1024) S1x256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .bf16 = 32 ∨ (Rect.block (s := S4096x1024) S4096x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S16x2048x1024.size a
  hwx0_3 : ∀ i : grid0.Coords, EltTy.bits .f32 = 32 ∨ (Rect.block (s := S16x2048x1024) S1x256x1024.size (cc0_transform_3 i) (hinb0_3 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v16) S1x256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S4096x1024 : Shape := ⟨2, ![4096, 1024]⟩
abbrev S16x2048 : Shape := ⟨2, ![16, 2048]⟩
abbrev S_ : Shape := ⟨0, ![]⟩
abbrev S16 : Shape := ⟨1, ![16]⟩
abbrev S16x1 : Shape := ⟨2, ![16, 1]⟩
abbrev S16x2048x1 : Shape := ⟨3, ![16, 2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S4096x1024, .f32⟩
  | .hbm, ⟨2, _⟩ => ⟨S16x2048, .i32⟩
  | .hbm, ⟨3, _⟩ => ⟨S16x2048, .f32⟩
  | .hbm, ⟨4, _⟩ => ⟨S_, .f32⟩
  | .hbm, ⟨5, _⟩ => ⟨S16, .f32⟩
  | .hbm, ⟨6, _⟩ => ⟨S16x1, .f32⟩
  | .hbm, ⟨7, _⟩ => ⟨S_, .f32⟩
  | .hbm, ⟨8, _⟩ => ⟨S16, .f32⟩
  | .hbm, ⟨9, _⟩ => ⟨S16x1, .f32⟩
  | .hbm, ⟨10, _⟩ => ⟨S16x1, .f32⟩
  | .hbm, ⟨11, _⟩ => ⟨S_, .f32⟩
  | .hbm, ⟨12, _⟩ => ⟨S16x1, .f32⟩
  | .hbm, ⟨13, _⟩ => ⟨S16x1, .f32⟩
  | .hbm, ⟨14, _⟩ => ⟨S16x2048, .f32⟩
  | .hbm, ⟨15, _⟩ => ⟨S16x2048, .f32⟩
  | .hbm, ⟨16, _⟩ => ⟨S16x2048, .f32⟩
  | .hbm, ⟨17, _⟩ => ⟨S16x2048, .f32⟩
  | .hbm, ⟨18, _⟩ => ⟨S_, .f32⟩
  | .hbm, ⟨19, _⟩ => ⟨S16x2048, .f32⟩
  | .hbm, ⟨20, _⟩ => ⟨S16x2048, .f32⟩
  | .hbm, ⟨21, _⟩ => ⟨S16x2048, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S16x2048, .i32⟩
  | .hbm, ⟨26, _⟩ => ⟨S16x2048, .i32⟩
  | .hbm, ⟨27, _⟩ => ⟨S_, .i32⟩
  | .hbm, ⟨28, _⟩ => ⟨S16x2048, .i32⟩
  | .hbm, ⟨29, _⟩ => ⟨S16x2048, .i32⟩
  | .hbm, ⟨30, _⟩ => ⟨S_, .i32⟩
  | .hbm, ⟨31, _⟩ => ⟨S16x2048, .i32⟩
  | .hbm, ⟨32, _⟩ => ⟨S16x2048, .i1⟩
  | .hbm, ⟨33, _⟩ => ⟨S_, .i32⟩
  | .hbm, ⟨34, _⟩ => ⟨S16x2048, .i32⟩
  | .hbm, ⟨35, _⟩ => ⟨S16x2048, .i32⟩
  | .hbm, ⟨36, _⟩ => ⟨S16x2048, .i32⟩
  | .hbm, ⟨37, _⟩ => ⟨S16x2048x1, .i32⟩
  | .hbm, ⟨38, _⟩ => ⟨S16x2048x1024, .f32⟩
  | .hbm, ⟨39, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_c_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]

class Facts₀ : Prop where
  reducesTo_S16x2048_S16_d1 : S16x2048.ReducesTo [1] S16
  h_S_ : 0 < S_.numel
  bcast_S16_S16x1_0 : S16.BroadcastsInDim S16x1 (![0] : Fin 1 → Fin S16x1.rank)
  bcast_S_S16x1 : S_.BroadcastsInDim S16x1 (![] : Fin 0 → Fin S16x1.rank)
  bcast_S16x1_S16x2048_0_1 : S16x1.BroadcastsInDim S16x2048 (![0, 1] : Fin 2 → Fin S16x2048.rank)
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  gather_S4096x1024_S16x2048x1_S16x2048x1024_2_0_n_n_0_2_11024_wf : GatherDims.WF S4096x1024 S16x2048x1 S16x2048x1024 [2] [0] [] [0] [] 2 ![1, 1024]

variable [Facts₀]

def gather_S4096x1024_S16x2048x1_S16x2048x1024_2_0_n_n_0_2_11024 : GatherDims S4096x1024 S16x2048x1 S16x2048x1024 where
  offsetDims := [2]
  collapsedSliceDims := [0]
  operandBatchingDims := []
  startIndicesBatchingDims := []
  startIndexMap := [0]
  indexVectorDim := 2
  sliceSizes := ![1, 1024]
  wf := gather_S4096x1024_S16x2048x1_S16x2048x1024_2_0_n_n_0_2_11024_wf

class Facts : Prop extends Facts₀ where

variable [Facts]
-- ==== Proof.Lookup.lean ====
/-
  Looking a row up in a table by an index word, and the same row picked out by a one-hot sum.

  A table of 4096 rows is read at the row an integer word `w` names. Read as a signed integer and clamped into
  [0, 4095] the word names row `rowOf w`; a word that already lies in that range names the row of its own value.
  Two ways of picking that row out of the table meet here. Reading it directly gives the entry `(rowOf w, d)`.
  Multiplying the table from the left by the row vector that holds 1 at position `w` and 0 elsewhere gives
  `∑ l, [l = w] · table (l, d)`; since 0 · y = 0 for EVERY extended real y, an infinite one included, every term but
  one vanishes and the sum is that one entry. So the two agree whatever the table holds.
-/
import Idealize.ShloMosaic.Lib.ValueIdx
import Idealize.ShloMosaic.PureOps.Ideal.Laws

noncomputable section

open scoped BigOperators

namespace Cert.Lookup

open Idealize.ShloMosaic Idealize.ShloMosaic.ValueIdx

/-- The table row an index word names: the word read as a signed integer, clamped into `[0, 4095]`. -/
def rowOf (w : BitVec 32) : Fin 4096 := ⟨min w.toInt.toNat 4095, by omega⟩

/-- A word that, read as a signed integer, already lies in `[0, 4095]`. -/
def InRange (w : BitVec 32) : Prop := 0 ≤ w.toInt ∧ w.toInt ≤ 4095

theorem toInt_zero : (0#32 : BitVec 32).toInt = 0 := by decide

theorem toInt_4095 : (4095#32 : BitVec 32).toInt = 4095 := by decide

/-- Clipping a word between 0 and 4095 — the signed maximum with 0, then the signed minimum with 4095 — lands in
    range, whatever the word was. -/
theorem clip_inRange (p : BitVec 32) : InRange (IntOp.minsi 4095#32 (IntOp.maxsi 0#32 p)) := by
  have h0 := toInt_zero
  have h1 := toInt_4095
  unfold InRange IntOp.minsi IntOp.maxsi
  simp only [BitVec.slt, decide_eq_true_eq]
  split_ifs <;> omega

/-- A word in range, read unsigned, is the same number as read signed; it is its own row number. -/
theorem rowOf_val {w : BitVec 32} (h : InRange w) : (rowOf w).val = w.toNat := by
  obtain ⟨h0, h1⟩ := h
  have hlt : w.toNat < 4294967296 := w.isLt
  show min w.toInt.toNat 4095 = w.toNat
  rw [BitVec.toInt_eq_toNat_cond] at h0 h1 ⊢
  have hp : (2 : Nat) ^ 32 = 4294967296 := by norm_num
  rw [hp] at h0 h1 ⊢
  split_ifs at h0 h1 ⊢ <;> omega

/-- An in-range word is the word of the number `l` exactly when `l` is its row. -/
theorem eq_ofNat_iff {w : BitVec 32} (h : InRange w) (l : Fin 4096) : w = BitVec.ofNat 32 l.val ↔ l = rowOf w := by
  have hv := rowOf_val h
  have hl : l.val % 2 ^ 32 = l.val := Nat.mod_eq_of_lt (by have := l.isLt; omega)
  constructor
  · intro e
    apply Fin.ext
    rw [hv, e, BitVec.toNat_ofNat, hl]
  · intro e
    apply BitVec.eq_of_toNat_eq
    rw [BitVec.toNat_ofNat, hl, e, hv]

/-- The wrap-around of a negative index (`w + 4096` when `w < 0`, else `w`) leaves an in-range word as it is. -/
theorem wrap_of_inRange {w : BitVec 32} (h : InRange w) :
    Scalar.select (IntOp.cmpi .slt w 0#32) (IntOp.addi w 4096#32) w = w := by
  have hs : w.slt 0#32 = false := by
    simp only [BitVec.slt, decide_eq_false_iff_not, toInt_zero]
    exact not_lt.mpr h.1
  have hc : IntOp.cmpi .slt w 0#32 = 0#1 := by
    show BitVec.ofBool (w.slt 0#32) = 0#1
    rw [hs]; rfl
  rw [hc]
  exact select_zero _ _

/-- ONE ENTRY OF THE ONE-HOT ROW: the comparison bit of an in-range word `w` with the number `l`, widened to a word
    and converted to a float, is 1 when `l` is `w`'s row and 0 otherwise. -/
theorem onehot_entry {w : BitVec 32} (h : InRange w) (l : Fin 4096) :
    (FloatOps.sitofp (F := Ideal) .f32 ((IntOp.cmpi .eq w (BitVec.ofNat 32 l.val)).setWidth 32) : EReal)
      = if l = rowOf w then 1 else 0 := by
  show (((((IntOp.cmpi .eq w (BitVec.ofNat 32 l.val)).setWidth 32).toInt : ℝ)) : EReal) = _
  by_cases e : w = BitVec.ofNat 32 l.val
  · rw [if_pos ((eq_ofNat_iff h l).mp e)]
    have hc : IntOp.cmpi .eq w (BitVec.ofNat 32 l.val) = 1#1 := by
      show BitVec.ofBool (w == BitVec.ofNat 32 l.val) = 1#1
      rw [beq_iff_eq.mpr e]; rfl
    have h1 : ((1#1 : BitVec 1).setWidth 32).toInt = 1 := by decide
    rw [hc, h1]; simp
  · rw [if_neg (fun hl => e ((eq_ofNat_iff h l).mpr hl))]
    have hc : IntOp.cmpi .eq w (BitVec.ofNat 32 l.val) = 0#1 := by
      show BitVec.ofBool (w == BitVec.ofNat 32 l.val) = 0#1
      rw [beq_eq_false_iff_ne.mpr e]; rfl
    have h0 : ((0#1 : BitVec 1).setWidth 32).toInt = 0 := by decide
    rw [hc, h0]; simp

/-- THE ONE-HOT SUM: a row vector with 1 at position `k` and 0 elsewhere, times a column `f`, is `f k` — for any
    extended reals in `f`, since `0 · y = 0` for every `y`. -/
theorem onehot_sum (f : Fin 4096 → EReal) (k : Fin 4096) :
    ∑ l : Fin 4096, (if l = k then (1 : EReal) else 0) * f l = f k := by
  rw [Finset.sum_eq_single k]
  · rw [if_pos rfl, one_mul]
  · intro l _ hl
    rw [if_neg hl, zero_mul]
  · intro hk
    exact absurd (Finset.mem_univ k) hk

/-! ## The index word of a token: the chain both programs run on the timestamps

Both programs turn the integer timestamps `ts : [16, 2048]` into table rows by the same operations, in the same order
and with the same constants: the timestamps as floats; each of the 16 rows' minimum and maximum, kept as columns; the
row's range, raised to at least the float `0x358637BD` (about 1e-6); every timestamp's distance from its row's minimum
divided by that, times 4095; the result truncated to an integer word; that word clipped into `[0, 4095]`. What the
chain computes before the clip never matters below: only that the clip comes last. -/

abbrev T2 : Shape := ⟨2, ![16, 2048]⟩
abbrev T11 : Shape := ⟨2, ![16, 1]⟩
abbrev T1 : Shape := ⟨1, ![16]⟩
abbrev T0 : Shape := ⟨0, ![]⟩

theorem red : T2.ReducesTo [1] T1 := by decide
theorem pos0 : 0 < T0.numel := by decide
theorem bc_1_11 : T1.BroadcastsInDim T11 (![0] : Fin 1 → Fin T11.rank) := by decide
theorem bc_0_11 : T0.BroadcastsInDim T11 (![] : Fin 0 → Fin T11.rank) := by decide
theorem bc_11_2 : T11.BroadcastsInDim T2 (![0, 1] : Fin 2 → Fin T2.rank) := by decide
theorem bc_0_2 : T0.BroadcastsInDim T2 (![] : Fin 0 → Fin T2.rank) := by decide

/-- Each row's smallest timestamp, as a column. -/
def rowMin (ts : IVec T2 32) : FVec Ideal T11 .f32 :=
  broadcastInDim T11 ![0] bc_1_11 (Host.reduce FloatOps.minimumf (sitofp .f32 ts) (constant T0 .f32 0x7F800000#32) red pos0)

/-- Each row's largest timestamp, as a column. -/
def rowMax (ts : IVec T2 32) : FVec Ideal T11 .f32 :=
  broadcastInDim T11 ![0] bc_1_11 (Host.reduce FloatOps.maximumf (sitofp .f32 ts) (constant T0 .f32 0xFF800000#32) red pos0)

/-- Each row's range, raised to at least the small positive float `0x358637BD`. -/
def rowRange (ts : IVec T2 32) : FVec Ideal T11 .f32 :=
  maximumf (subf (rowMax ts) (rowMin ts)) (broadcastInDim T11 ![] bc_0_11 (constant T0 .f32 0x358637BD#32))

/-- The position of each timestamp in its row's range, scaled to `[0, 4095]` and truncated to an integer word. -/
def rawIdx (ts : IVec T2 32) : IVec T2 32 :=
  fptosi (F := Ideal) 32 (mulf (Host.divf (subf (sitofp .f32 ts) (broadcastInDim T2 ![0, 1] bc_11_2 (rowMin ts)))
    (broadcastInDim T2 ![0, 1] bc_11_2 (rowRange ts))) (broadcastInDim T2 ![] bc_0_2 (constant T0 .f32 0x457FF000#32)))

/-- The clip into `[0, 4095]`: the signed maximum with 0, then the signed minimum with 4095, word by word. -/
def clip (p : IVec T2 32) : IVec T2 32 :=
  minsi (broadcastInDim T2 ![] bc_0_2 (id (constantI T0 32 4095#32)))
    (maxsi (broadcastInDim T2 ![] bc_0_2 (id (constantI T0 32 0#32))) p)

theorem clip_apply (p : IVec T2 32) (i : T2.Idx) : clip p i = IntOp.minsi 4095#32 (IntOp.maxsi 0#32 (p i)) := rfl

/-- Every clipped word is in range. -/
theorem clip_apply_inRange (p : IVec T2 32) (i : T2.Idx) : InRange (clip p i) := clip_inRange (p i)

/-- THE RESULT both programs compute: entry `(b, n, d)` is `x (b, n, d)` plus entry `d` of the table row named by
    token `(b, n)`'s index word. -/
def G (x : (⟨3, ![16, 2048, 1024]⟩ : Shape).Idx → EReal) (pe : (⟨2, ![4096, 1024]⟩ : Shape).Idx → EReal)
    (J : (⟨2, ![16, 2048]⟩ : Shape).Idx → BitVec 32) : (⟨3, ![16, 2048, 1024]⟩ : Shape).Idx → EReal :=
  fun i => x i + pe (ix2 (rowOf (J (ix2 (⟨(i 0).val, (i 0).isLt⟩ : Fin 16) (⟨(i 1).val, (i 1).isLt⟩ : Fin 2048))))
    (⟨(i 2).val, (i 2).isLt⟩ : Fin 1024))

theorem G_apply (x : (⟨3, ![16, 2048, 1024]⟩ : Shape).Idx → EReal) (pe : (⟨2, ![4096, 1024]⟩ : Shape).Idx → EReal)
    (J : (⟨2, ![16, 2048]⟩ : Shape).Idx → BitVec 32) (b : Fin 16) (n : Fin 2048) (d : Fin 1024) :
    G x pe J (ix3 b n d) = x (ix3 b n d) + pe (ix2 (rowOf (J (ix2 b n))) d) := rfl

end Cert.Lookup

end
-- ==== Proof.LibGatherRows.lean ====
/-
  A row gather read at an index: `table[idx]` for a matrix `table : [N, D]` and an integer array `idx : [R, C]`.

  jnp lowers it to `stablehlo.gather` over the indices laid out `[R, C, 1]`, with offset_dims `[2]`,
  collapsed_slice_dims `[0]`, start_index_map `[0]`, index_vector_dim 2 and slice_sizes `[1, D]`: result entry
  `(r, c, d)` is entry `d` of the table row whose number is the start index `idx[r, c, 0]`, read as a signed integer and
  clamped into `[0, N − 1]` as StableHLO clamps every start index. The matrix counterpart of the library's
  `gather_take_apply` (a flat array at a matrix of indices).
-/
import Idealize.ShloMosaic.Lib.ValueIdx

noncomputable section

namespace Cert.LibGatherRows

open Idealize.ShloMosaic Idealize.ShloMosaic.ValueIdx

variable {α : Type}

/-- Those dimension numbers for a table `[N, D]`, start indices `[R, C, 1]` and a result `[R, C, D]`; their conditions
    `wf` are decided on a program's literal shapes. -/
abbrev rowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- THE ROW GATHER READ AT `(r, c, d)`: entry `d` of the table row named by the start index `idx[r, c, 0]`, read signed
    and clamped into `[0, N − 1]`. On the table's row axis the operand coordinate is the clamped start (that axis is
    collapsed: no offset); on its column axis the start is 0 and the offset is the result's last coordinate. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (c : Fin C) (d : Fin D) :
    Host.gather (rowsDims N D R C wf) x idx (ix3 r c d)
      = x (ix2 ⟨min (idx (ix3 r c (0 : Fin 1))).toInt.toNat (N - 1), by omega⟩ d) := by
  unfold Host.gather
  refine congrArg x (funext fun a => Fin.ext ?_)
  match a with
  | ⟨0, _⟩ =>
    show (rowsDims N D R C wf).start (ix3 r c d) idx 0 + (rowsDims N D R C wf).batchCoord (ix3 r c d) 0
      + (rowsDims N D R C wf).offCoord (ix3 r c d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D R C wf).startIndexMap from List.mem_singleton.mpr rfl)]
    have hsi : (rowsDims N D R C wf).siIdx (ix3 r c d) ⟨List.idxOf (0 : Fin 2) (rowsDims N D R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims N D R C wf).start (ix3 r c d) idx 1 + (rowsDims N D R C wf).batchCoord (ix3 r c d) 1
      + (rowsDims N D R C wf).offCoord (ix3 r c d) 1 = d.val
    have hs : (rowsDims N D R C wf).start (ix3 r c d) idx 1 = 0 := by
      unfold GatherDims.start
      rw [dif_neg (show (1 : Fin 2) ∉ ([0] : List (Fin 2)) from by decide)]
    rw [hs, GatherDims.batchCoord_eq_zero _ _ _ List.not_mem_nil]
    unfold GatherDims.offCoord
    rw [dif_pos ((GatherDims.mem_sKept _ _).mpr
      ⟨(show (1 : Fin 2) ∉ ([0] : List (Fin 2)) from by decide), List.not_mem_nil⟩)]
    simp only [Nat.zero_add, Nat.add_zero]
    rfl

end Cert.LibGatherRows

end
-- ==== Proof.RefTail.lean ====
/-
  The reference, entry by entry: `x + table[idx]`.

  After the index chain the reference wraps a negative index round by the table's height (`idx + 4096` where
  `idx < 0`), lays the indices out as `[16, 2048, 1]`, gathers the table's rows at them and adds `x`. The chain ends in
  a clip into `[0, 4095]`, so no index is negative and the wrap changes nothing; the gather's own clamp of the start
  index into `[0, 4095]` is the row `rowOf` names. So entry `(b, n, d)` is `x (b, n, d)` plus entry `d` of the row named
  by token `(b, n)`'s clipped index word.
-/
import proofs.«148241_j12670153523234_1_alg».proof.Proof.Gen.ReferenceIdeal
import proofs.«148241_j12670153523234_1_alg».proof.Proof.Lookup
import proofs.«148241_j12670153523234_1_alg».proof.Proof.LibGatherRows
import Idealize.ShloMosaic.Lib.Pipeline.Value

noncomputable section

namespace Cert.ReferenceIdeal.Tail

open Cert.ReferenceIdeal Cert.ReferenceIdeal.Gen Cert.Lookup Cert.LibGatherRows
open Idealize.ShloMosaic Idealize.ShloMosaic.ValueIdx

/-- The indices as the gather reads them: a clipped index word is never negative, so the wrap-around keeps it. -/
theorem wrapped_apply (p : IVec S16x2048 32) (b : Fin 16) (n : Fin 2048) :
    broadcastInDim S16x2048x1 ![0, 1] bcast_S16x2048_S16x2048x1_0_1
      (select (cmpi .slt (clip p) (broadcastInDim S16x2048 ![] bcast_S_S16x2048 (constantI S_ 32 0#32)))
        (addi (clip p) (broadcastInDim S16x2048 ![] bcast_S_S16x2048 (constantI S_ 32 4096#32))) (clip p))
      (ix3 b n (0 : Fin 1)) = clip p (ix2 b n) := by
  refine (broadcastInDim_apply _ bcast_S16x2048_S16x2048x1_0_1 _ (ix3 b n (0 : Fin 1)) (ix2 b n) (fun a => ?_)).trans ?_
  · match a with
    | ⟨0, _⟩ => show b.val = if (16 : Nat) = 1 then 0 else b.val; rw [if_neg (by decide)]
    | ⟨1, _⟩ => show n.val = if (2048 : Nat) = 1 then 0 else n.val; rw [if_neg (by decide)]
  · exact wrap_of_inRange (clip_apply_inRange p (ix2 b n))

/-- THE REFERENCE'S RESULT is `G` of the arguments and the clipped index words. -/
theorem result_eq (x : FVec Ideal S16x2048x1024 .f32) (pe : FVec Ideal S4096x1024 .f32) (p : IVec S16x2048 32) :
    addf x (Host.gather gather_S4096x1024_S16x2048x1_S16x2048x1024_2_0_n_n_0_2_11024 pe
      (broadcastInDim S16x2048x1 ![0, 1] bcast_S16x2048_S16x2048x1_0_1
        (select (cmpi .slt (clip p) (broadcastInDim S16x2048 ![] bcast_S_S16x2048 (constantI S_ 32 0#32)))
          (addi (clip p) (broadcastInDim S16x2048 ![] bcast_S_S16x2048 (constantI S_ 32 4096#32))) (clip p))))
      = G x pe (clip p) := by
  funext i
  obtain ⟨b, n, d, rfl⟩ : ∃ (b : Fin 16) (n : Fin 2048) (d : Fin 1024), i = ix3 b n d := ⟨i 0, i 1, i 2, eq_ix3 i⟩
  rw [G_apply]
  show x (ix3 b n d) + Host.gather (rowsDims 4096 1024 16 2048 gather_S4096x1024_S16x2048x1_S16x2048x1024_2_0_n_n_0_2_11024_wf) pe _ (ix3 b n d) = _
  rw [gather_rows_apply (by decide)]
  exact congrArg (fun w => x (ix3 b n d) + pe (ix2 ⟨min (BitVec.toInt w).toNat (4096 - 1), by omega⟩ d))
    (wrapped_apply p b n)

end Cert.ReferenceIdeal.Tail

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.KernelEntry.lean ====
/-
  The kernel's body, entry by entry: a block of `x` plus the table rows its index words name.

  At one grid point the body holds a column of 256 index words, a `[256, 1024]` block of `x` and the whole table. It
  spreads the column along 4096 lanes, compares it with the lane number, and turns the comparison bits into floats: a
  `[256, 4096]` matrix whose row `r` holds 1 at the lane equal to index word `r` and 0 elsewhere. Its product with the
  table, accumulated into zero, is at `(r, d)` the sum over the 4096 lanes `l` of (entry `(r, l)`) · table `(l, d)`:
  by the one-hot sum, entry `d` of the table row that index word `r` names. The body stores `x`'s block plus that.
  The changes of float format on the way (the one-hot matrix and the table rounded to bf16) are the identity on the
  extended reals.
-/
import proofs.«148241_j12670153523234_1_alg».proof.Proof.Gen.KernelIdeal.Skeleton
import proofs.«148241_j12670153523234_1_alg».proof.Proof.Lookup
import proofs.«148241_j12670153523234_1_alg».proof.Proof.LibKeepdims
import Idealize.ShloMosaic.Lib.ValueLayout
import Idealize.ShloMosaic.Lib.Pipeline.Value
import Idealize.ShloMosaic.PureOps.Ideal.Laws

noncomputable section

open scoped BigOperators

namespace Cert.KernelIdeal.Entry

open Cert.KernelIdeal Cert.KernelIdeal.Gen Cert.Lookup Cert.LibKeepdims
open Idealize.ShloMosaic Idealize.ShloMosaic.ValueIdx

/-- The product's dimension numbers: `[256, 4096] × [4096, 1024]`, the one contracted axis of extent 4096. -/
abbrev D := dot_S256x4096_S4096x1024_S256x1024_1_0_0_1_n_n

/-- The contraction index is its one coordinate, a lane number below 4096. -/
abbrev lanes : D.contr.Idx ≃ Fin 4096 := contrEquiv1 D 4096 rfl rfl

/-- At output entry `(r, d)` and lane `l` the left operand is read at `(r, l)`. -/
theorem lhsIdx_eq (r : Fin 256) (d : Fin 1024) (l : Fin 4096) : D.lhsIdx (ix2 r d) (lanes.symm l) = ix2 r l := by
  funext a
  refine Fin.ext ?_
  match a with
  | ⟨0, _⟩ => rfl
  | ⟨1, _⟩ => exact (DotDims.lhsIdx_val_of_single D rfl (ix2 r d) (lanes.symm l)).trans (contrEquiv1_symm_val D 4096 rfl rfl l)

/-- At output entry `(r, d)` and lane `l` the right operand is read at `(l, d)`. -/
theorem rhsIdx_eq (r : Fin 256) (d : Fin 1024) (l : Fin 4096) : D.rhsIdx (ix2 r d) (lanes.symm l) = ix2 l d := by
  funext a
  refine Fin.ext ?_
  match a with
  | ⟨0, _⟩ => exact (DotDims.rhsIdx_val_of_single D rfl (ix2 r d) (lanes.symm l)).trans (contrEquiv1_symm_val D 4096 rfl rfl l)
  | ⟨1, _⟩ => rfl

/-- THE ONE-HOT MATRIX at `(r, l)`: 1 when lane `l` is the row that index word `r` names, else 0. -/
theorem onehot_apply (v0 : Vec Ideal S1x256x1 .i32) (r : Fin 256) (l : Fin 4096)
    (h : InRange (v0 (ix3 (0 : Fin 1) r (0 : Fin 1)))) :
    (truncf .bf16 (sitofp (F := Ideal) .f32 (extui 32 (cmpi .eq
        (broadcastTo S256x4096 (shapeCast S256x1 v0 shapeCasts_S1x256x1_S256x1) broadcasts_S256x1_S256x4096)
        (iota .tc S256x4096 32 [1] iota_S256x4096_d1_w32)) natLt_1_32)) bitsLt_bf16_f32 : FVec Ideal S256x4096 .bf16) (ix2 r l)
      = if l = rowOf (v0 (ix3 (0 : Fin 1) r (0 : Fin 1))) then 1 else 0 := by
  show FloatOps.sitofp (F := Ideal) .f32 ((IntOp.cmpi .eq
    (broadcastTo S256x4096 (shapeCast S256x1 v0 shapeCasts_S1x256x1_S256x1) broadcasts_S256x1_S256x4096 (ix2 r l))
    (iota .tc S256x4096 32 [1] iota_S256x4096_d1_w32 (ix2 r l))).setWidth 32) = _
  rw [broadcastTo_a1_ab_apply, shapeCast_1ab_ab_apply, iota_single_apply]
  exact onehot_entry h l

/-- THE BODY'S STORED VALUE at `(0, r, d)`: `x`'s block there plus entry `d` of the table row named by index word `r`. -/
theorem pay_apply (v0 : Vec Ideal S1x256x1 .i32) (v8 : Vec Ideal S4096x1024 .bf16) (v11 : Vec Ideal S1x256x1024 .f32)
    (r : Fin 256) (d : Fin 1024) (h : InRange (v0 (ix3 (0 : Fin 1) r (0 : Fin 1)))) :
    k0_pay1 (F := Ideal) v0 v8 v11 (ix3 (0 : Fin 1) r d)
      = v11 (ix3 (0 : Fin 1) r d) + v8 (ix2 (rowOf (v0 (ix3 (0 : Fin 1) r (0 : Fin 1)))) d) := by
  unfold k0_pay1
  refine (shapeCast_ab_1ab_apply _ _ (0 : Fin 1) r d).trans ?_
  refine (addf_apply _ _ _).trans ?_
  refine congrArg₂ (· + ·) (shapeCast_1ab_ab_apply v11 _ r d) ?_
  refine (Ideal.matmul_constant_zero_apply D none _ _ (ix2 r d)).trans ?_
  rw [← Equiv.sum_comp lanes.symm]
  refine (Finset.sum_congr rfl fun l _ => ?_).trans
    (onehot_sum (fun l => v8 (ix2 l d)) (rowOf (v0 (ix3 (0 : Fin 1) r (0 : Fin 1)))))
  rw [lhsIdx_eq, rhsIdx_eq, onehot_apply v0 r l h, shapeCast_self]

end Cert.KernelIdeal.Entry

end
-- ==== Proof.HostPrefix.lean ====
/-
  What the kernel's region finds in the arrays it did not get as arguments.

  Before the region @main computes, on the host, the clipped index words (the chain shared with the reference), lays
  them out as `[16, 2048, 1]` for the kernel's first window, and rounds the table to bf16 for its third. At the ideal
  values the rounding is the identity, so the third window's array is the table argument itself.
-/
import proofs.«148241_j12670153523234_1_alg».proof.Proof.Gen.KernelIdeal.Frame
import proofs.«148241_j12670153523234_1_alg».proof.Proof.Lookup
import Idealize.ShloMosaic.Lib.StableHlo.Run

noncomputable section

namespace Cert.KernelIdeal.Prefix

open Cert.KernelIdeal Cert.KernelIdeal.Gen Cert.Lookup
open Idealize.ShloMosaic Idealize.ShloMosaic.TcCoe Idealize.SL.Sem Idealize.ShloMosaic.StableHlo

variable (m : (ℓ : Loc nD τ sig) → Buf (Elt Ideal) ℓ)

/-- The first window's array at region entry: the clipped index words of the timestamps, laid out `[16, 2048, 1]`. -/
theorem V_index (c : Dev nD) :
    (V m c main_v16 : S16x2048x1.Idx → BitVec 32)
      = broadcastInDim S16x2048x1 ![0, 1] bcast_S16x2048_S16x2048x1_0_1 (clip (rawIdx (m ((c : Thread nD τ).loc main_arg2)))) := by
  dsimp only [V]
  simp only [hostOps0, hostOps0_1, hostOps0_2, List.flatten_cons, List.flatten_nil, List.append_nil, List.cons_append,
    List.nil_append]
  after_results_simp
  simp only [TRef.toBuf, TRef.ofBuf, cast_eq]
  rfl

/-- The third window's array at region entry: the table argument (its rounding to bf16 is the identity here). -/
theorem V_table (c : Dev nD) :
    (V m c main_v17 : S4096x1024.Idx → EReal) = m ((c : Thread nD τ).loc main_arg1) := by
  dsimp only [V]
  simp only [hostOps0, hostOps0_1, hostOps0_2, List.flatten_cons, List.flatten_nil, List.append_nil, List.cons_append,
    List.nil_append]
  after_results_simp
  rfl

end Cert.KernelIdeal.Prefix

end
-- ==== Proof.Blocks.lean ====
/-
  The kernel's output array from its blocks.

  The grid has 16 × 8 points; the point with block indices `(b, n)` works on batch `b` and tokens `256 n … 256 n + 255`:
  it is handed those tokens' column of index words, their block of `x`, and the whole table, and writes back the
  `[1, 256, 1024]` block of the output at `(b, 256 n, 0)`. By the body's value at an entry, what it writes back is that
  block of the whole result `x + pe[row]`; the 128 blocks tile the `[16, 2048, 1024]` array, so after the run the array
  is the whole result.
-/
import proofs.«148241_j12670153523234_1_alg».proof.Proof.Gen.KernelIdeal.Value
import proofs.«148241_j12670153523234_1_alg».proof.Proof.KernelEntry
import proofs.«148241_j12670153523234_1_alg».proof.Proof.HostPrefix

set_option maxRecDepth 16384

noncomputable section

namespace Cert.KernelIdeal.Whole

open Cert.KernelIdeal Cert.KernelIdeal.Gen Cert.Lookup
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The clipped index words the kernel's @main computes from the timestamps before the region. -/
abbrev words (c : Dev nD) : T2.Idx → BitVec 32 := clip (rawIdx (m ((c : Thread nD τ).loc main_arg2)))

/-- The whole result array: `x` plus, token by token, the table row its index word names. -/
abbrev result (c : Dev nD) : S16x2048x1024.Idx → EReal :=
  G (m ((c : Thread nD τ).loc main_arg0)) (m ((c : Thread nD τ).loc main_arg1)) (words m c)

/-- The printed index maps, decided over the 128 grid points: the index column and the block of `x` move with the
    output block (batch `b`, token block `n`), the table's one block stays, and the output's block indices fill
    `16 × 8`. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = win0_3.index t (1 : Fin 3)
    ∧ win0_1.index t (2 : Fin 3) = 0
    ∧ win0_2.index t (0 : Fin 2) = 0 ∧ win0_2.index t (1 : Fin 2) = 0
    ∧ win0_3.index t (0 : Fin 3) ≤ 15 ∧ win0_3.index t (1 : Fin 3) ≤ 7 ∧ win0_3.index t (2 : Fin 3) = 0 :=
  (by decide +kernel : ∀ t : Fin grid0.N, _)

/-- Every block of the output array is some point's. -/
theorem idx_onto : ∀ (q0 : Fin 16) (q1 : Fin 8), ∃ t : Fin cfg0.N, win0_3.index t = ![q0.val, q1.val, 0] :=
  (by decide +kernel : ∀ (q0 : Fin 16) (q1 : Fin 8), ∃ t : Fin grid0.N, win0_3.index t = ![q0.val, q1.val, 0])

/-- WHAT POINT `t` WRITES BACK is block `t` of the whole result. At the point with block indices `(b, n)` entry
    `(0, r, d)` of the output block is array entry `(b, 256 n + r, d)`; there the index column's block holds token
    `(b, 256 n + r)`'s index word, `x`'s block holds `x (b, 256 n + r, d)`, and the table's one block is the table. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz3]
  simp only [View.ld_unit_zero (S := S1x256x1) hz3, View.ld_unit_zero (S := S4096x1024) hz2, View.ld_unit_zero (S := S1x256x1024) hz3]
  obtain ⟨e0, e1, e2, e3, e4, e5, e6, e7, e8, e9, e10⟩ := idx_facts t
  funext j
  obtain ⟨u, r, d, rfl⟩ : ∃ (u : Fin 1) (r : Fin 256) (d : Fin 1024), j = ix3 u r d := ⟨j 0, j 1, j 2, eq_ix3 j⟩
  obtain rfl : u = 0 := Subsingleton.elim _ _
  have hr : r.val < 256 := r.isLt
  have hd : d.val < 1024 := d.isLt
  show k0_pay1 (iblk m c 0 t) (iblk m c 2 t) (iblk m c 1 t) (ix3 (0 : Fin 1) r d)
    = result m c (((cfg0.win 3).blk t).view.emb (ix3 (0 : Fin 1) r d))
  have hout : ((cfg0.win 3).blk t).view.emb (ix3 (0 : Fin 1) r d)
      = ix3 (⟨win0_3.index t (0 : Fin 3), by omega⟩ : Fin 16) (⟨win0_3.index t (1 : Fin 3) * 256 + r.val, by omega⟩ : Fin 2048) d := by
    funext a; apply Fin.ext
    match a with
    | ⟨0, _⟩ => show win0_3.index t (0 : Fin 3) * 1 + 1 * (0 : Nat) = win0_3.index t (0 : Fin 3); omega
    | ⟨1, _⟩ => show win0_3.index t (1 : Fin 3) * 256 + 1 * r.val = win0_3.index t (1 : Fin 3) * 256 + r.val; omega
    | ⟨2, _⟩ => show win0_3.index t (2 : Fin 3) * 1024 + 1 * d.val = d.val; omega
  have h0 : iblk m c 0 t (ix3 (0 : Fin 1) r (0 : Fin 1))
      = words m c (ix2 (⟨win0_3.index t (0 : Fin 3), by omega⟩ : Fin 16) (⟨win0_3.index t (1 : Fin 3) * 256 + r.val, by omega⟩ : Fin 2048)) := by
    show V m c main_v16 (((cfg0.win 0).blk t).view.emb (ix3 (0 : Fin 1) r (0 : Fin 1))) = _
    refine (congrFun (Prefix.V_index m c) _).trans ?_
    refine broadcastInDim_apply _ _ _ _ _ (fun a => ?_)
    match a with
    | ⟨0, _⟩ =>
      show win0_3.index t (0 : Fin 3) = if (16 : Nat) = 1 then 0 else win0_0.index t (0 : Fin 3) * 1 + 1 * (0 : Nat)
      rw [if_neg (by decide)]; omega
    | ⟨1, _⟩ =>
      show win0_3.index t (1 : Fin 3) * 256 + r.val = if (2048 : Nat) = 1 then 0 else win0_0.index t (1 : Fin 3) * 256 + 1 * r.val
      rw [if_neg (by decide)]; omega
  have h1 : iblk m c 1 t (ix3 (0 : Fin 1) r d)
      = m ((c : Thread nD τ).loc main_arg0) (ix3 (⟨win0_3.index t (0 : Fin 3), by omega⟩ : Fin 16) (⟨win0_3.index t (1 : Fin 3) * 256 + r.val, by omega⟩ : Fin 2048) d) := by
    show V m c main_arg0 (((cfg0.win 1).blk t).view.emb (ix3 (0 : Fin 1) r d)) = _
    rw [V_main_arg0]
    refine congrArg _ (funext fun a => Fin.ext ?_)
    match a with
    | ⟨0, _⟩ => show win0_1.index t (0 : Fin 3) * 1 + 1 * (0 : Nat) = win0_3.index t (0 : Fin 3); omega
    | ⟨1, _⟩ => show win0_1.index t (1 : Fin 3) * 256 + 1 * r.val = win0_3.index t (1 : Fin 3) * 256 + r.val; omega
    | ⟨2, _⟩ => show win0_1.index t (2 : Fin 3) * 1024 + 1 * d.val = d.val; omega
  have h2 : ∀ l : Fin 4096, iblk m c 2 t (ix2 l d) = m ((c : Thread nD τ).loc main_arg1) (ix2 l d) := by
    intro l
    have hl : l.val < 4096 := l.isLt
    show V m c main_v17 (((cfg0.win 2).blk t).view.emb (ix2 l d)) = _
    refine (congrFun (Prefix.V_table m c) _).trans (congrArg _ (funext fun a => Fin.ext ?_))
    match a with
    | ⟨0, _⟩ => show win0_2.index t (0 : Fin 2) * 4096 + 1 * l.val = l.val; omega
    | ⟨1, _⟩ => show win0_2.index t (1 : Fin 2) * 1024 + 1 * d.val = d.val; omega
  rw [hout]
  refine (Entry.pay_apply (iblk m c 0 t) (iblk m c 2 t) (iblk m c 1 t) r d ?_).trans ?_
  · rw [h0]; exact clip_apply_inRange _ _
  · rw [h0, h1, h2]
    exact (G_apply _ _ _ _ _ _).symm

/-- An index of the output array is in point `t`'s block iff each coordinate is in the block's range on its axis. -/
theorem mem_blk (t : Fin cfg0.N) (i : S16x2048x1024.Idx) :
    i ∈ ((cfg0.win 3).blk t).view.set ↔ ∀ a : Fin 3, win0_3.index t a * S1x256x1024.size a ≤ (i a).val
      ∧ (i a).val < win0_3.index t a * S1x256x1024.size a + S1x256x1024.size a := by
  show i ∈ ((View.whole main_v18).slice (win0_3.rect t)).set ↔ _
  rw [View.set_slice_whole, Rect.mem_set_unit]
  exact Iff.rfl

/-- THE BLOCKS COVER THE ARRAY: entry `(b, n, d)` lies in the block of the point with block indices `(b, n / 256)`. -/
theorem cover (i : S16x2048x1024.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

/-- THE OUTPUT ARRAY after the run is the whole result. -/
theorem final (c : Dev nD) : (dats m 0 c).arrAt 3 cfg0.N = result m c :=
  (dats m 0 c).arrAt_eq_of_cover 3 (result m c) (fun t _ => flushed_eq m c t) (cover)

/-- THE KERNEL'S RUN: every weakly fair execution terminates with the output array at the whole result and the
    arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.lean ====
/-
  A positional-encoding lookup added to `x`: the kernel picks the table's rows by a one-hot matrix product, the
  reference by a gather.

  Both programs turn each token's integer timestamp into a row number of the table `pe : [4096, 1024]` by the same
  chain of host operations (the timestamp's position in its row's range, scaled to `[0, 4095]`, truncated, clipped
  into `[0, 4095]`), and both return `x + pe[row]`, entry by entry. They differ in how the row is picked.

  The reference gathers: it wraps a negative row number round by 4096 (never needed after the clip) and reads the
  table's row at the clamped number.

  The kernel, per block of 256 tokens, compares the block's column of row numbers with the lane numbers
  `0 … 4095`, makes of the comparison bits a `[256, 4096]` matrix of ones and zeros with exactly one 1 per row, and
  multiplies it with the table. On the extended reals `0 · y = 0` for every `y`, so each entry of the product is the
  single table entry its 1 selects: the same row, whatever the table holds. The roundings of the one-hot matrix and of
  the table to bf16 are the identity on the extended reals. The 16 × 8 blocks the grid's points write tile the
  output array, so the array after the run is `x + pe[row]` everywhere.

  The ideal pass rewrote nothing, so `preserves` is `True`. The kernels' frames and the kernel's run block by block
  come from the generated modules, the reference's run from Proof/RefRun.lean. What is proved in the modules under Proof/: the one-hot sum and the word
  arithmetic (Lookup), the row gather at an index (LibGatherRows), the reference's last operations (RefTail), the
  kernel body's stored value at an entry (KernelEntry), what the region finds in the arrays @main computed
  (HostPrefix), and the output array from its blocks (Blocks).
-/
import proofs.«148241_j12670153523234_1_alg».proof.Defs
import proofs.«148241_j12670153523234_1_alg».proof.Proof.Gen.Kernel
import proofs.«148241_j12670153523234_1_alg».proof.Proof.Gen.Kernel.Frame
import proofs.«148241_j12670153523234_1_alg».proof.Proof.Gen.KernelIdeal
import proofs.«148241_j12670153523234_1_alg».proof.Proof.Gen.KernelIdeal.Frame
import proofs.«148241_j12670153523234_1_alg».proof.Proof.Gen.KernelIdeal.Value
import proofs.«148241_j12670153523234_1_alg».proof.Proof.Gen.ReferenceIdeal
import proofs.«148241_j12670153523234_1_alg».proof.Proof.Gen.Pre_finite_inputs
import proofs.«148241_j12670153523234_1_alg».proof.Proof.RefRun
import proofs.«148241_j12670153523234_1_alg».proof.Proof.RefTail
import proofs.«148241_j12670153523234_1_alg».proof.Proof.Blocks
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The ideal pass rewrote no operation. -/
theorem preserves : Cert.preserves_Kernel_KernelIdeal := trivial

/-- From memories that agree on the arguments both programs end with `x + pe[row]`: the kernel's output array by
    its blocks, the reference's result by its last operations read at an entry. Neither side uses that the inputs
    are finite. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.RunP.run (F := Ideal) m' ρ')
  rw [(hagree c).1, (hagree c).2.1, (hagree c).2.2]
  exact Cert.ReferenceIdeal.Tail.result_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
